-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1 : Shape := ⟨2, ![16384, 1]⟩
abbrev S1025x512 : Shape := ⟨2, ![1025, 512]⟩
abbrev S512 : Shape := ⟨1, ![512]⟩
abbrev S1536x2560 : Shape := ⟨2, ![1536, 2560]⟩
abbrev S2560 : Shape := ⟨1, ![2560]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S1025x512 : S_.BroadcastsInDim S1025x512 (![] : Fin 0 → Fin S1025x512.rank)
  reducesTo_S1025x512_S_d0_1 : S1025x512.ReducesTo [0, 1] S_
  bcast_S_S512 : S_.BroadcastsInDim S512 (![] : Fin 0 → Fin S512.rank)
  reducesTo_S512_S_d0 : S512.ReducesTo [0] S_
  bcast_S_S1536x2560 : S_.BroadcastsInDim S1536x2560 (![] : Fin 0 → Fin S1536x2560.rank)
  reducesTo_S1536x2560_S_d0_1 : S1536x2560.ReducesTo [0, 1] S_
  bcast_S_S2560 : S_.BroadcastsInDim S2560 (![] : Fin 0 → Fin S2560.rank)
  reducesTo_S2560_S_d0 : S2560.ReducesTo [0] S_

variable [Facts]

def fn_part2 {F : FTy → Type} [FloatOps F] (main_arg7 : FVec F S2560 .f32) (main_v33 : IVec S_ 1) : IVec S_ 1 :=
  let main_v34 : FVec F S2560 .f32 := Host.absf main_arg7
  let main_cst_12 : FVec F S_ .f32 := constant S_ .f32 0x7F800000#32
  let main_v35 : FVec F S2560 .f32 := broadcastInDim S2560 ![] bcast_S_S2560 main_cst_12
  let main_v36 : IVec S2560 1 := cmpf .olt main_v34 main_v35
  let main_c_13 : IVec S_ 1 := constantI S_ 1 1#1
  let main_v37 : IVec S_ 1 := (fun x v => Host.reduce IntOp.andi x v reducesTo_S2560_S_d0 h_S_) main_v36 main_c_13
  let main_v38 : IVec S_ 1 := andi main_v33 main_v37
  main_v38

def fn_part1 {F : FTy → Type} [FloatOps F] (main_arg4 : FVec F S1025x512 .f32) (main_arg5 : FVec F S512 .f32) (main_arg6 : FVec F S1536x2560 .f32) (main_arg7 : FVec F S2560 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S1025x512 .f32 := Host.absf main_arg4
  let main_cst_6 : FVec F S_ .f32 := constant S_ .f32 0x7F800000#32
  let main_v20 : FVec F S1025x512 .f32 := broadcastInDim S1025x512 ![] bcast_S_S1025x512 main_cst_6
  let main_v21 : IVec S1025x512 1 := cmpf .olt main_v19 main_v20
  let main_c_7 : IVec S_ 1 := constantI S_ 1 1#1
  let main_v22 : IVec S_ 1 := (fun x v => Host.reduce IntOp.andi x v reducesTo_S1025x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1536x2560 .f32 := Host.absf main_arg6
  let main_cst_10 : FVec F S_ .f32 := constant S_ .f32 0x7F800000#32
  let main_v30 : FVec F S1536x2560 .f32 := broadcastInDim S1536x2560 ![] bcast_S_S1536x2560 main_cst_10
  let main_v31 : IVec S1536x2560 1 := cmpf .olt main_v29 main_v30
  let main_c_11 : IVec S_ 1 := constantI S_ 1 1#1
  let main_v32 : IVec S_ 1 := (fun x v => Host.reduce IntOp.andi x v reducesTo_S1536x2560_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x1 .f32) (main_arg2 : FVec F S16384x512 .f32) (main_arg3 : FVec F S16384x512 .f32) (main_arg4 : FVec F S1025x512 .f32) (main_arg5 : FVec F S512 .f32) (main_arg6 : FVec F S1536x2560 .f32) (main_arg7 : FVec F S2560 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_v13 main_v16
-- ==== Kernel.lean ====
abbrev S16384x512 : Shape := ⟨2, ![16384, 512]⟩
abbrev S16384x1 : Shape := ⟨2, ![16384, 1]⟩
abbrev S1025x512 : Shape := ⟨2, ![1025, 512]⟩
abbrev S512 : Shape := ⟨1, ![512]⟩
abbrev S1536x2560 : Shape := ⟨2, ![1536, 2560]⟩
abbrev S2560 : Shape := ⟨1, ![2560]⟩
abbrev S512x512 : Shape := ⟨2, ![512, 512]⟩
abbrev S1x512 : Shape := ⟨2, ![1, 512]⟩
abbrev S512x2560 : Shape := ⟨2, ![512, 2560]⟩
abbrev S1x2560 : Shape := ⟨2, ![1, 2560]⟩
abbrev S512x1 : Shape := ⟨2, ![512, 1]⟩

abbrev nBuf : Space → Nat
  | .hbm => 23
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x1, .f32⟩
  | .hbm, ⟨2, _⟩ => ⟨S16384x512, .f32⟩
  | .hbm, ⟨3, _⟩ => ⟨S16384x512, .f32⟩
  | .hbm, ⟨4, _⟩ => ⟨S1025x512, .f32⟩
  | .hbm, ⟨5, _⟩ => ⟨S512, .f32⟩
  | .hbm, ⟨6, _⟩ => ⟨S1536x2560, .f32⟩
  | .hbm, ⟨7, _⟩ => ⟨S2560, .f32⟩
  | .hbm, ⟨8, _⟩ => ⟨S512x512, .f32⟩
  | .hbm, ⟨9, _⟩ => ⟨S512x512, .f32⟩
  | .hbm, ⟨10, _⟩ => ⟨S1x512, .f32⟩
  | .hbm, ⟨11, _⟩ => ⟨S512x2560, .f32⟩
  | .hbm, ⟨12, _⟩ => ⟨S512x2560, .f32⟩
  | .hbm, ⟨13, _⟩ => ⟨S512x2560, .f32⟩
  | .hbm, ⟨14, _⟩ => ⟨S512x512, .bf16⟩
  | .hbm, ⟨15, _⟩ => ⟨S512x512, .bf16⟩
  | .hbm, ⟨16, _⟩ => ⟨S512x2560, .bf16⟩
  | .hbm, ⟨17, _⟩ => ⟨S512x2560, .bf16⟩
  | .hbm, ⟨18, _⟩ => ⟨S512x2560, .bf16⟩
  | .hbm, ⟨19, _⟩ => ⟨S1x512, .f32⟩
  | .hbm, ⟨20, _⟩ => ⟨S1x2560, .f32⟩
  | .hbm, ⟨21, _⟩ => ⟨S16384x512, .f32⟩
  | .hbm, ⟨22, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x1, .f32⟩
  | .local _ .vmem, ⟨3, _⟩ => ⟨S512x1, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S512x2560, .bf16⟩
  | .local _ .vmem, ⟨13, _⟩ => ⟨S512x2560, .bf16⟩
  | .local _ .vmem, ⟨14, _⟩ => ⟨S512x2560, .bf16⟩
  | .local _ .vmem, ⟨15, _⟩ => ⟨S1x2560, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S1025x512_S512x512_0_0 : S1025x512.Slices ![0, 0] S512x512
  slices_S1025x512_S512x512_512_0 : S1025x512.Slices ![512, 0] S512x512
  slices_S1025x512_S1x512_1024_0 : S1025x512.Slices ![1024, 0] S1x512
  slices_S1536x2560_S512x2560_0_0 : S1536x2560.Slices ![0, 0] S512x2560
  slices_S1536x2560_S512x2560_512_0 : S1536x2560.Slices ![512, 0] S512x2560
  slices_S1536x2560_S512x2560_1024_0 : S1536x2560.Slices ![1024, 0] S512x2560
  bitsLt_bf16_f32 : FTy.bits .bf16 < FTy.bits .f32
  shapeCasts_S512_S1x512 : S512.ShapeCasts S1x512
  shapeCasts_S2560_S1x2560 : S2560.ShapeCasts S1x2560
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x2560_S512x512_0_0 : ∀ a, (![0, 0] : Fin 2 → Nat) a + S512x512.size a ≤ S512x2560.size a
  inb_S1x2560_S1x512_0_0 : ∀ a, (![0, 0] : Fin 2 → Nat) a + S1x512.size a ≤ S1x2560.size a
  inb_S512x2560_S512x512_0_512 : ∀ a, (![0, 512] : Fin 2 → Nat) a + S512x512.size a ≤ S512x2560.size a
  inb_S1x2560_S1x512_0_512 : ∀ a, (![0, 512] : Fin 2 → Nat) a + S1x512.size a ≤ S1x2560.size a
  inb_S512x2560_S512x512_0_1536 : ∀ a, (![0, 1536] : Fin 2 → Nat) a + S512x512.size a ≤ S512x2560.size a
  inb_S1x2560_S1x512_0_1536 : ∀ a, (![0, 1536] : Fin 2 → Nat) a + S1x512.size a ≤ S1x2560.size a
  inb_S512x2560_S512x512_0_1024 : ∀ a, (![0, 1024] : Fin 2 → Nat) a + S512x512.size a ≤ S512x2560.size a
  inb_S1x2560_S1x512_0_1024 : ∀ a, (![0, 1024] : Fin 2 → Nat) a + S1x512.size a ≤ S1x2560.size a
  inb_S512x2560_S512x512_0_2048 : ∀ a, (![0, 2048] : Fin 2 → Nat) a + S512x512.size a ≤ S512x2560.size a
  inb_S1x2560_S1x512_0_2048 : ∀ a, (![0, 2048] : Fin 2 → Nat) a + S1x512.size a ≤ S1x2560.size a
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x2560.size a ≤ S512x2560.size a
  hwx0_8 : ∀ i : grid0.Coords, EltTy.bits .bf16 = 32 ∨ (Rect.block (s := S512x2560) S512x2560.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2560.size a ≤ S512x2560.size a
  hwx0_9 : ∀ i : grid0.Coords, EltTy.bits .bf16 = 32 ∨ (Rect.block (s := S512x2560) S512x2560.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x2560.size a ≤ S512x2560.size a
  hwx0_10 : ∀ i : grid0.Coords, EltTy.bits .bf16 = 32 ∨ (Rect.block (s := S512x2560) S512x2560.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2560.size a ≤ S1x2560.size a
  hwx0_11 : ∀ i : grid0.Coords, EltTy.bits .f32 = 32 ∨ (Rect.block (s := S1x2560) S1x2560.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S16384x512.size a
  hwx0_12 : ∀ i : grid0.Coords, EltTy.bits .f32 = 32 ∨ (Rect.block (s := S16384x512) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S16384x512.size a
  hwx0_13 : ∀ i : grid0.Coords, EltTy.bits .f32 = 32 ∨ (Rect.block (s := S16384x512) S512x512.size (cc0_transform_13 i) (hinb0_13 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S512x2560.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S512x2560.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S512x2560.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x2560.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13_0) S512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13_1) S512x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1 : Shape := ⟨2, ![16384, 1]⟩
abbrev S1025x512 : Shape := ⟨2, ![1025, 512]⟩
abbrev S512 : Shape := ⟨1, ![512]⟩
abbrev S1536x2560 : Shape := ⟨2, ![1536, 2560]⟩
abbrev S2560 : Shape := ⟨1, ![2560]⟩
abbrev S16384x1025 : Shape := ⟨2, ![16384, 1025]⟩
abbrev S1x512 : Shape := ⟨2, ![1, 512]⟩
abbrev S16384x1536 : Shape := ⟨2, ![16384, 1536]⟩
abbrev S16384x2560 : Shape := ⟨2, ![16384, 2560]⟩
abbrev S1x2560 : Shape := ⟨2, ![1, 2560]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1, .f32⟩
  | .hbm, ⟨2, _⟩ => ⟨S16384x512, .f32⟩
  | .hbm, ⟨3, _⟩ => ⟨S16384x512, .f32⟩
  | .hbm, ⟨4, _⟩ => ⟨S1025x512, .f32⟩
  | .hbm, ⟨5, _⟩ => ⟨S512, .f32⟩
  | .hbm, ⟨6, _⟩ => ⟨S1536x2560, .f32⟩
  | .hbm, ⟨7, _⟩ => ⟨S2560, .f32⟩
  | .hbm, ⟨8, _⟩ => ⟨S16384x1025, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x1536, .f32⟩
  | .hbm, ⟨15, _⟩ => ⟨S16384x2560, .f32⟩
  | .hbm, ⟨16, _⟩ => ⟨S1x2560, .f32⟩
  | .hbm, ⟨17, _⟩ => ⟨S16384x2560, .f32⟩
  | .hbm, ⟨18, _⟩ => ⟨S16384x2560, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  concatenates_S16384x512_S16384x512_S16384x1_S16384x1025_d1 : Shape.Concatenates [S16384x512, S16384x512, S16384x1] S16384x1025 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  concatenates_S16384x512_S16384x512_S16384x512_S16384x1536_d1 : Shape.Concatenates [S16384x512, S16384x512, S16384x512] S16384x1536 1
  bcast_S2560_S1x2560_1 : S2560.BroadcastsInDim S1x2560 (![1] : Fin 1 → Fin S1x2560.rank)
  bcast_S1x2560_S16384x2560_0_1 : S1x2560.BroadcastsInDim S16384x2560 (![0, 1] : Fin 2 → Fin S16384x2560.rank)
  slices_S16384x2560_S16384x512_0_0 : S16384x2560.Slices ![0, 0] S16384x512
  bcast_S_S16384x512 : S_.BroadcastsInDim S16384x512 (![] : Fin 0 → Fin S16384x512.rank)
  slices_S16384x2560_S16384x512_0_512 : S16384x2560.Slices ![0, 512] S16384x512
  slices_S16384x2560_S16384x512_0_1024 : S16384x2560.Slices ![0, 1024] S16384x512
  slices_S16384x2560_S16384x512_0_1536 : S16384x2560.Slices ![0, 1536] S16384x512
  slices_S16384x2560_S16384x512_0_2048 : S16384x2560.Slices ![0, 2048] S16384x512
  dot_S16384x1025_S1025x512_S16384x512_1_0_0_1_n_n_wf : DotDims.WF S16384x1025 S1025x512 S16384x512 [1] [0] [0] [1] [] []
  dot_S16384x1536_S1536x2560_S16384x2560_1_0_0_1_n_n_wf : DotDims.WF S16384x1536 S1536x2560 S16384x2560 [1] [0] [0] [1] [] []

variable [Facts₀]

def dot_S16384x1025_S1025x512_S16384x512_1_0_0_1_n_n : DotDims S16384x1025 S1025x512 S16384x512 where
  lhsContracting := [1]
  rhsContracting := [0]
  lhsNonContracting := [0]
  rhsNonContracting := [1]
  lhsBatch := []
  rhsBatch := []
  wf := dot_S16384x1025_S1025x512_S16384x512_1_0_0_1_n_n_wf
def dot_S16384x1536_S1536x2560_S16384x2560_1_0_0_1_n_n : DotDims S16384x1536 S1536x2560 S16384x2560 where
  lhsContracting := [1]
  rhsContracting := [0]
  lhsNonContracting := [0]
  rhsNonContracting := [1]
  lhsBatch := []
  rhsBatch := []
  wf := dot_S16384x1536_S1536x2560_S16384x2560_1_0_0_1_n_n_wf

class Facts : Prop extends Facts₀ where

variable [Facts]
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.Cell.lean ====
/-
  One step of a time-aware LSTM cell over a batch of rows, stated one row at a time on the extended reals.

  A row carries a hidden vector `h`, an input vector `x` (512 entries each), one elapsed time `d`, and a previous
  cell state. With the weights cut into the row blocks that multiply `h`, `x`, the elapsed time and the time gate:

    s      = tanh (((h·Sh + x·Sx) + d·sd) + sb)                        (the time gate)
    z_g    = ((h·Gh_g + x·Gx_g) + s·Gs_g) + gb_g,   g = 0 … 4          (the five gates' pre-activations)
    c      = (σ z_0 · c_prev + σ z_1 · tanh z_3) + σ z_2 · s            (the new cell state)
    hnew   = σ z_4 · tanh c                                            (the new hidden state)

  Every product `v·M` is the plain sum over the 512 entries of `v`; `σ` is the logistic function. The association of
  the sums above is the one both programs' texts share once a sum over the joined row `[h | x | d]` (or `[h | x | s]`)
  has been split at the joints, which is the only law used between them (`joined_dot`, `joined_dot3`).
-/
import Idealize.ShloMosaic.PureOps.Ideal
import Idealize.ShloMosaic.Lib.ValueIdx

noncomputable section

open scoped BigOperators

namespace Cert.Cell

open Idealize.ShloMosaic Idealize.ShloMosaic.ValueIdx

/-- A matrix of extended reals indexed as the programs index their arrays. -/
abbrev Arr (n m : Nat) := (⟨2, ![n, m]⟩ : Shape).Idx → EReal
/-- A vector of extended reals. -/
abbrev Arr1 (n : Nat) := (⟨1, ![n]⟩ : Shape).Idx → EReal

/-- The weights, cut into the blocks each part of a row meets: for the time gate the rows that multiply `h`, those
    that multiply `x`, the row that multiplies the elapsed time, and the bias; for gate `g` the rows that multiply
    `h`, `x` and the time gate, and the bias. -/
@[ext] structure Weights where
  sh : Fin 512 → Fin 512 → EReal
  sx : Fin 512 → Fin 512 → EReal
  sd : Fin 512 → EReal
  sb : Fin 512 → EReal
  gh : Fin 5 → Fin 512 → Fin 512 → EReal
  gx : Fin 5 → Fin 512 → Fin 512 → EReal
  gs : Fin 5 → Fin 512 → Fin 512 → EReal
  gb : Fin 5 → Fin 512 → EReal

/-- Column `q` of gate `g` among the 2560 stacked gate columns. -/
def gcol (g : Fin 5) (q : Fin 512) : Fin 2560 := ⟨512 * g.val + q.val, by have := g.isLt; have := q.isLt; omega⟩

/-- The time gate of a row, entry `q`. -/
def sRow (W : Weights) (h x : Fin 512 → EReal) (d : EReal) (q : Fin 512) : EReal :=
  Ideal.tanh ((((∑ k : Fin 512, h k * W.sh k q) + ∑ k : Fin 512, x k * W.sx k q) + d * W.sd q) + W.sb q)

/-- Gate `g`'s pre-activation of a row, entry `q`. -/
def zRow (W : Weights) (g : Fin 5) (h x : Fin 512 → EReal) (d : EReal) (q : Fin 512) : EReal :=
  (((∑ k : Fin 512, h k * W.gh g k q) + ∑ k : Fin 512, x k * W.gx g k q)
    + ∑ k : Fin 512, sRow W h x d k * W.gs g k q) + W.gb g q

/-- The new cell state of a row, entry `q`, from the previous cell state's entry `cp`. -/
def cRow (W : Weights) (h x : Fin 512 → EReal) (d cp : EReal) (q : Fin 512) : EReal :=
  (Ideal.logistic (zRow W 0 h x d q) * cp + Ideal.logistic (zRow W 1 h x d q) * Ideal.tanh (zRow W 3 h x d q))
    + Ideal.logistic (zRow W 2 h x d q) * sRow W h x d q

/-- The new hidden state of a row, entry `q`. -/
def hRow (W : Weights) (h x : Fin 512 → EReal) (d cp : EReal) (q : Fin 512) : EReal :=
  Ideal.logistic (zRow W 4 h x d q) * Ideal.tanh (cRow W h x d cp q)

/-- The new cell states of `N` rows as an array: row `r` of `X`, `D`, `H`, `C` gives row `r`. -/
def cArr {N : Nat} (W : Weights) (X : Arr N 512) (D : Arr N 1) (H C : Arr N 512) : Arr N 512 := fun i =>
  cRow W (fun k => H (ix2 (i 0) k)) (fun k => X (ix2 (i 0) k)) (D (ix2 (i 0) (0 : Fin 1))) (C (ix2 (i 0) (i 1))) (i 1)

/-- The new hidden states of `N` rows as an array. -/
def hArr {N : Nat} (W : Weights) (X : Arr N 512) (D : Arr N 1) (H C : Arr N 512) : Arr N 512 := fun i =>
  hRow W (fun k => H (ix2 (i 0) k)) (fun k => X (ix2 (i 0) k)) (D (ix2 (i 0) (0 : Fin 1))) (C (ix2 (i 0) (i 1))) (i 1)

/-- The weights as the two programs' arguments hold them: the time gate's matrix with rows `[h | x | d]` and its bias,
    the gates' matrix with rows `[h | x | s]` and columns gate by gate, and its bias. -/
def ofArrays (Ws : Arr 1025 512) (bs : Arr1 512) (Wg : Arr 1536 2560) (bg : Arr1 2560) : Weights where
  sh k q := Ws (ix2 (⟨k.val, by have := k.isLt; omega⟩ : Fin 1025) q)
  sx k q := Ws (ix2 (⟨512 + k.val, by have := k.isLt; omega⟩ : Fin 1025) q)
  sd q := Ws (ix2 (⟨1024, by omega⟩ : Fin 1025) q)
  sb q := bs (ix1 q)
  gh g k q := Wg (ix2 (⟨k.val, by have := k.isLt; omega⟩ : Fin 1536) (gcol g q))
  gx g k q := Wg (ix2 (⟨512 + k.val, by have := k.isLt; omega⟩ : Fin 1536) (gcol g q))
  gs g k q := Wg (ix2 (⟨1024 + k.val, by have := k.isLt; omega⟩ : Fin 1536) (gcol g q))
  gb g q := bg (ix1 (gcol g q))

/-! ## A sum over a joined row, split at the joints -/

/-- A sum over `512 + 512 + 1` terms is the sum of the first 512, the next 512 and the last one. -/
theorem joined_dot (f : Fin 1025 → EReal) :
    ∑ k : Fin 1025, f k
      = ((∑ k : Fin 512, f ⟨k.val, by have := k.isLt; omega⟩) + ∑ k : Fin 512, f ⟨512 + k.val, by have := k.isLt; omega⟩)
        + f ⟨1024, by omega⟩ := by
  have e : (1025 : Nat) = (512 + 512) + 1 := rfl
  rw [← Equiv.sum_comp (finCongr e).symm f, Fin.sum_univ_add, Fin.sum_univ_add, Fin.sum_univ_one]
  rfl

/-- A sum over `512 + 512 + 512` terms is the sum of its three stretches of 512. -/
theorem joined_dot3 (f : Fin 1536 → EReal) :
    ∑ k : Fin 1536, f k
      = ((∑ k : Fin 512, f ⟨k.val, by have := k.isLt; omega⟩) + ∑ k : Fin 512, f ⟨512 + k.val, by have := k.isLt; omega⟩)
        + ∑ k : Fin 512, f ⟨1024 + k.val, by have := k.isLt; omega⟩ := by
  have e : (1536 : Nat) = (512 + 512) + 512 := rfl
  rw [← Equiv.sum_comp (finCongr e).symm f, Fin.sum_univ_add, Fin.sum_univ_add]
  rfl

end Cert.Cell

end
-- ==== Proof.KernelEntries.lean ====
/-
  What one grid step of the kernel computes, entry by entry, at the ideal values.

  A grid step holds a block of 512 rows of `x`, of the elapsed times, of `h` and of the previous cell states, and the
  whole weight arrays as the host prepared them. Each stretch of the body's arithmetic is read at one entry `(p, q)` of
  its 512 × 512 result: a matrix product into the zero accumulator is the plain sum over the contracted index, a
  broadcast row or column reads its one entry, a change of float format and a cast to the same shape change nothing.
  Put together, entry `(p, q)` of what the step stores is the cell's new state (and new hidden state) of row `p` of the
  block, `Cell.cRow` / `Cell.hRow`, over the weights read off the step's weight arrays (`blockW`): gate `g`'s
  columns are columns `512 g … 512 g + 511` of the three gate matrices and of the bias row.
-/
import proofs.«171538_j69758858821994_2_alg».proof.Proof.Gen.KernelIdeal.Frame
import proofs.«171538_j69758858821994_2_alg».proof.Proof.LibMatmulEntry
import proofs.«171538_j69758858821994_2_alg».proof.Proof.LibBroadcastEntry
import proofs.«171538_j69758858821994_2_alg».proof.Proof.Cell
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.Cell

/-! ## The operations at an entry -/

/-- A product of two 512 × 512 blocks into the zero accumulator, at entry `(p, q)`. -/
theorem mm {φ₁ φ₂ : FTy} (a : FVec Ideal S512x512 φ₁) (b : FVec Ideal S512x512 φ₂) (p q : Fin 512) :
    FloatOps.matmul dot_S512x512_S512x512_S512x512_1_0_0_1_n_n none a b (constant S512x512 .f32 0x00000000#32) (ix2 p q)
      = ∑ k : Fin 512, a (ix2 p k) * b (ix2 k q) :=
  Ideal.matmul_rows_cols dot_S512x512_S512x512_S512x512_1_0_0_1_n_n rfl rfl rfl rfl rfl rfl none a b p q

theorem tanh_at {s : Shape} {φ : FTy} (a : FVec Ideal s φ) (i : s.Idx) : tanh a i = Ideal.tanh (a i) := rfl
theorem logistic_at {s : Shape} {φ : FTy} (a : FVec Ideal s φ) (i : s.Idx) : logistic a i = Ideal.logistic (a i) := rfl

/-- The time gate of the block's rows (the body's `tanh`), at entry `(p, q)`. -/
theorem pay4_at (v0 v1 : Vec Ideal S512x512 .f32) (v3 : Vec Ideal S512x1 .f32) (v6 v8 : Vec Ideal S512x512 .bf16)
    (v10 v12 : Vec Ideal S1x512 .f32) (p q : Fin 512) :
    k0_pay4 v0 v1 v3 v6 v8 v10 v12 (ix2 p q)
      = Ideal.tanh ((((∑ k : Fin 512, v1 (ix2 p k) * v6 (ix2 k q)) + ∑ k : Fin 512, v0 (ix2 p k) * v8 (ix2 k q))
          + v3 (ix2 p (0 : Fin 1)) * v10 (ix2 (0 : Fin 1) q)) + v12 (ix2 (0 : Fin 1) q)) := by
  unfold k0_pay4 k0_pay2 k0_pay3
  simp only [shapeCast_self, tanh_at, addf_apply, mulf_apply, mm, broadcastTo_a1_ab_apply, broadcastTo_1b_ab_apply,
    truncf_apply]

/-- The products of `h` and `x` with gate 0's columns, at entry `(p, q)`. -/
theorem pay6_at (v0 v1 : Vec Ideal S512x512 .f32) (v25 v28 : Vec Ideal S512x512 .bf16) (p q : Fin 512) :
    k0_pay6 v0 v1 v25 v28 (ix2 p q)
      = (∑ k : Fin 512, v1 (ix2 p k) * v25 (ix2 k q)) + ∑ k : Fin 512, v0 (ix2 p k) * v28 (ix2 k q) := by
  unfold k0_pay6 k0_pay2 k0_pay3
  simp only [shapeCast_self, addf_apply, mm, truncf_apply]

/-- Gate 0 applied to the previous cell state, at entry `(p, q)`. -/
theorem pay7_at (v2 : Vec Ideal S512x512 .f32) (v24 : FVec Ideal S512x512 .bf16) (v31 : FVec Ideal S512x512 .f32)
    (v32 : Vec Ideal S512x512 .bf16) (v36 : Vec Ideal S1x512 .f32) (p q : Fin 512) :
    k0_pay7 v2 v24 v31 v32 v36 (ix2 p q)
      = Ideal.logistic ((v31 (ix2 p q) + ∑ k : Fin 512, v24 (ix2 p k) * v32 (ix2 k q)) + v36 (ix2 (0 : Fin 1) q))
        * v2 (ix2 p q) := by
  unfold k0_pay7
  simp only [shapeCast_self, logistic_at, addf_apply, mulf_apply, mm, broadcastTo_1b_ab_apply]

/-- Gate 1, at entry `(p, q)`. -/
theorem pay8_at (v4 v5 v24 : FVec Ideal S512x512 .bf16) (v42 v45 v49 : Vec Ideal S512x512 .bf16)
    (v53 : Vec Ideal S1x512 .f32) (p q : Fin 512) :
    k0_pay8 v4 v5 v24 v42 v45 v49 v53 (ix2 p q)
      = Ideal.logistic ((((∑ k : Fin 512, v5 (ix2 p k) * v42 (ix2 k q)) + ∑ k : Fin 512, v4 (ix2 p k) * v45 (ix2 k q))
          + ∑ k : Fin 512, v24 (ix2 p k) * v49 (ix2 k q)) + v53 (ix2 (0 : Fin 1) q)) := by
  unfold k0_pay8
  simp only [shapeCast_self, logistic_at, addf_apply, mm, broadcastTo_1b_ab_apply]

/-- Gate 3's three products, at entry `(p, q)`. -/
theorem pay9_at (v4 v5 v24 : FVec Ideal S512x512 .bf16) (v58 v61 v65 : Vec Ideal S512x512 .bf16) (p q : Fin 512) :
    k0_pay9 v4 v5 v24 v58 v61 v65 (ix2 p q)
      = ((∑ k : Fin 512, v5 (ix2 p k) * v58 (ix2 k q)) + ∑ k : Fin 512, v4 (ix2 p k) * v61 (ix2 k q))
          + ∑ k : Fin 512, v24 (ix2 p k) * v65 (ix2 k q) := by
  unfold k0_pay9
  simp only [shapeCast_self, addf_apply, mm]

/-- The new cell state from its parts, at entry `(p, q)`. -/
theorem pay10_at (v4 v5 : FVec Ideal S512x512 .bf16) (v23 : FVec Ideal S512x512 .f32) (v24 : FVec Ideal S512x512 .bf16)
    (v41 v57 v68 : FVec Ideal S512x512 .f32) (v69 : Vec Ideal S1x512 .f32) (v76 v79 v83 : Vec Ideal S512x512 .bf16)
    (v87 : Vec Ideal S1x512 .f32) (p q : Fin 512) :
    k0_pay10 v4 v5 v23 v24 v41 v57 v68 v69 v76 v79 v83 v87 (ix2 p q)
      = (v41 (ix2 p q) + v57 (ix2 p q) * Ideal.tanh (v68 (ix2 p q) + v69 (ix2 (0 : Fin 1) q)))
        + Ideal.logistic ((((∑ k : Fin 512, v5 (ix2 p k) * v76 (ix2 k q)) + ∑ k : Fin 512, v4 (ix2 p k) * v79 (ix2 k q))
            + ∑ k : Fin 512, v24 (ix2 p k) * v83 (ix2 k q)) + v87 (ix2 (0 : Fin 1) q)) * v23 (ix2 p q) := by
  unfold k0_pay10
  simp only [shapeCast_self, logistic_at, tanh_at, addf_apply, mulf_apply, mm, broadcastTo_1b_ab_apply]

/-- Gate 4's three products, at entry `(p, q)`. -/
theorem pay11_at (v4 v5 v24 : FVec Ideal S512x512 .bf16) (v94 v97 v101 : Vec Ideal S512x512 .bf16) (p q : Fin 512) :
    k0_pay11 v4 v5 v24 v94 v97 v101 (ix2 p q)
      = ((∑ k : Fin 512, v5 (ix2 p k) * v94 (ix2 k q)) + ∑ k : Fin 512, v4 (ix2 p k) * v97 (ix2 k q))
          + ∑ k : Fin 512, v24 (ix2 p k) * v101 (ix2 k q) := by
  unfold k0_pay11
  simp only [shapeCast_self, addf_apply, mm]

/-- The new hidden state from gate 4 and the new cell state, at entry `(p, q)`. -/
theorem pay1_at (v93 v104 : FVec Ideal S512x512 .f32) (v105 : Vec Ideal S1x512 .f32) (p q : Fin 512) :
    k0_pay1 v93 v104 v105 (ix2 p q)
      = Ideal.logistic (v104 (ix2 p q) + v105 (ix2 (0 : Fin 1) q)) * Ideal.tanh (v93 (ix2 p q)) := by
  unfold k0_pay1
  simp only [shapeCast_self, logistic_at, tanh_at, addf_apply, mulf_apply, broadcastTo_1b_ab_apply]

theorem pay2_at (v0 : Vec Ideal S512x512 .f32) (i : S512x512.Idx) : k0_pay2 v0 i = v0 i := rfl
theorem pay3_at (v1 : Vec Ideal S512x512 .f32) (i : S512x512.Idx) : k0_pay3 v1 i = v1 i := rfl
theorem pay5_at (v0 v1 : Vec Ideal S512x512 .f32) (v3 : Vec Ideal S512x1 .f32) (v6 v8 : Vec Ideal S512x512 .bf16)
    (v10 v12 : Vec Ideal S1x512 .f32) (i : S512x512.Idx) :
    k0_pay5 v0 v1 v3 v6 v8 v10 v12 i = k0_pay4 v0 v1 v3 v6 v8 v10 v12 i := rfl

/-! ## The loads of one gate's columns -/

/-- A 512 × 512 load from a 512 × 2560 array at column offset `o` reads column `o + q`. -/
theorem ld_cols (x : Vec Ideal S512x2560 .bf16) (o : Nat)
    (inb : ∀ a, (![0, o] : Fin 2 → Nat) a + S512x512.size a ≤ S512x2560.size a) (k q : Fin 512) (c : Fin 2560)
    (hc : c.val = o + q.val) :
    View.ld x (Rect.unit (s := S512x2560) ![0, o] S512x512.size inb) (ix2 k q) = x (ix2 k c) := by
  show x ((Rect.unit (s := S512x2560) ![0, o] S512x512.size inb).idx (ix2 k q)) = x (ix2 k c)
  refine congrArg x (funext fun a => Fin.ext ?_)
  match a with
  | ⟨0, _⟩ => show 0 + 1 * k.val = k.val; omega
  | ⟨1, _⟩ => show o + 1 * q.val = c.val; omega

/-- A 1 × 512 load from a 1 × 2560 row at column offset `o` reads column `o + q`. -/
theorem ld_row (x : Vec Ideal S1x2560 .f32) (o : Nat)
    (inb : ∀ a, (![0, o] : Fin 2 → Nat) a + S1x512.size a ≤ S1x2560.size a) (q : Fin 512) (c : Fin 2560)
    (hc : c.val = o + q.val) :
    View.ld x (Rect.unit (s := S1x2560) ![0, o] S1x512.size inb) (ix2 (0 : Fin 1) q) = x (ix2 (0 : Fin 1) c) := by
  show x ((Rect.unit (s := S1x2560) ![0, o] S1x512.size inb).idx (ix2 (0 : Fin 1) q)) = x (ix2 (0 : Fin 1) c)
  refine congrArg x (funext fun a => Fin.ext ?_)
  match a with
  | ⟨0, _⟩ => show 0 + 1 * 0 = 0; omega
  | ⟨1, _⟩ => show o + 1 * q.val = c.val; omega

/-! ## One grid step -/

/-- The weights a grid step holds: its weight arrays read entry by entry, gate `g` at its own columns. -/
def blockW (x4 x5 : Vec Ideal S512x512 .bf16) (x6 x7 : Vec Ideal S1x512 .f32) (x8 x9 x10 : Vec Ideal S512x2560 .bf16)
    (x11 : Vec Ideal S1x2560 .f32) : Weights where
  sh k q := x4 (ix2 k q)
  sx k q := x5 (ix2 k q)
  sd q := x6 (ix2 (0 : Fin 1) q)
  sb q := x7 (ix2 (0 : Fin 1) q)
  gh g k q := x8 (ix2 k (gcol g q))
  gx g k q := x9 (ix2 k (gcol g q))
  gs g k q := x10 (ix2 k (gcol g q))
  gb g q := x11 (ix2 (0 : Fin 1) (gcol g q))

theorem hz : (![0, 0] : Fin 2 → Nat) = fun _ => 0 := funext fun a => by fin_cases a <;> rfl

section Step

variable (x0 : Vec Ideal S512x512 .f32) (x1 : Vec Ideal S512x1 .f32) (x2 x3 : Vec Ideal S512x512 .f32)
  (x4 x5 : Vec Ideal S512x512 .bf16) (x6 x7 : Vec Ideal S1x512 .f32) (x8 x9 x10 : Vec Ideal S512x2560 .bf16)
  (x11 : Vec Ideal S1x2560 .f32)

/-- The time gate the step computes is the cell's, row by row. -/
theorem step_s (p q : Fin 512) :
    k0_pay4 x0 x2 x1 x4 x5 x6 x7 (ix2 p q)
      = sRow (blockW x4 x5 x6 x7 x8 x9 x10 x11) (fun k => x2 (ix2 p k)) (fun k => x0 (ix2 p k)) (x1 (ix2 p (0 : Fin 1))) q := by
  rw [pay4_at]; rfl

/-- The three products and the bias of one gate, over 512 × 512 (and 1 × 512) pieces that hold the gate's columns of
    the step's gate arrays, are the cell's pre-activation of the gate. -/
theorem step_z (g : Fin 5) (p q : Fin 512) (w8 w9 w10 : Vec Ideal S512x512 .bf16) (b11 : Vec Ideal S1x512 .f32)
    (h8 : ∀ k : Fin 512, w8 (ix2 k q) = x8 (ix2 k (gcol g q))) (h9 : ∀ k : Fin 512, w9 (ix2 k q) = x9 (ix2 k (gcol g q)))
    (h10 : ∀ k : Fin 512, w10 (ix2 k q) = x10 (ix2 k (gcol g q)))
    (h11 : b11 (ix2 (0 : Fin 1) q) = x11 (ix2 (0 : Fin 1) (gcol g q))) :
    (((∑ k : Fin 512, x2 (ix2 p k) * w8 (ix2 k q)) + ∑ k : Fin 512, x0 (ix2 p k) * w9 (ix2 k q))
        + ∑ k : Fin 512, k0_pay4 x0 x2 x1 x4 x5 x6 x7 (ix2 p k) * w10 (ix2 k q)) + b11 (ix2 (0 : Fin 1) q)
      = zRow (blockW x4 x5 x6 x7 x8 x9 x10 x11) g (fun k => x2 (ix2 p k)) (fun k => x0 (ix2 p k)) (x1 (ix2 p (0 : Fin 1))) q := by
  simp only [step_s x0 x1 x2 x4 x5 x6 x7 x8 x9 x10 x11, h8, h9, h10, h11]
  rfl

/-- The value the step stores into the cell-state block, at entry `(p, q)`, is the cell's new state of row `p`. -/
theorem step_c_pay (p q : Fin 512) :
    (k0_pay10 (k0_pay2 x0) (k0_pay3 x2) (k0_pay4 x0 x2 x1 x4 x5 x6 x7) (k0_pay5 x0 x2 x1 x4 x5 x6 x7) (k0_pay7 x3 (k0_pay5 x0 x2 x1 x4 x5 x6 x7) (k0_pay6 x0 x2 (View.ld x8 r0_3) (View.ld x9 r0_3)) (View.ld x10 r0_3) (View.ld x11 r0_4)) (k0_pay8 (k0_pay2 x0) (k0_pay3 x2) (k0_pay5 x0 x2 x1 x4 x5 x6 x7) (View.ld x8 r0_5) (View.ld x9 r0_5) (View.ld x10 r0_5) (View.ld x11 r0_6)) (k0_pay9 (k0_pay2 x0) (k0_pay3 x2) (k0_pay5 x0 x2 x1 x4 x5 x6 x7) (View.ld x8 r0_7) (View.ld x9 r0_7) (View.ld x10 r0_7)) (View.ld x11 r0_8) (View.ld x8 r0_9) (View.ld x9 r0_9) (View.ld x10 r0_9) (View.ld x11 r0_10)) (ix2 p q)
      = cRow (blockW x4 x5 x6 x7 x8 x9 x10 x11) (fun k => x2 (ix2 p k)) (fun k => x0 (ix2 p k)) (x1 (ix2 p (0 : Fin 1))) (x3 (ix2 p q)) q := by
  rw [pay10_at, pay7_at, pay8_at, pay9_at, pay6_at]
  simp only [pay2_at, pay3_at, pay5_at]
  rw [step_z x0 x1 x2 x4 x5 x6 x7 x8 x9 x10 x11 0 p q (View.ld x8 r0_3) (View.ld x9 r0_3) (View.ld x10 r0_3) (View.ld x11 r0_4)
      (fun k => ld_cols x8 0 inb_S512x2560_S512x512_0_0 k q (gcol 0 q) rfl) (fun k => ld_cols x9 0 inb_S512x2560_S512x512_0_0 k q (gcol 0 q) rfl)
      (fun k => ld_cols x10 0 inb_S512x2560_S512x512_0_0 k q (gcol 0 q) rfl) (ld_row x11 0 inb_S1x2560_S1x512_0_0 q (gcol 0 q) rfl),
    step_z x0 x1 x2 x4 x5 x6 x7 x8 x9 x10 x11 1 p q (View.ld x8 r0_5) (View.ld x9 r0_5) (View.ld x10 r0_5) (View.ld x11 r0_6)
      (fun k => ld_cols x8 512 inb_S512x2560_S512x512_0_512 k q (gcol 1 q) rfl) (fun k => ld_cols x9 512 inb_S512x2560_S512x512_0_512 k q (gcol 1 q) rfl)
      (fun k => ld_cols x10 512 inb_S512x2560_S512x512_0_512 k q (gcol 1 q) rfl) (ld_row x11 512 inb_S1x2560_S1x512_0_512 q (gcol 1 q) rfl),
    step_z x0 x1 x2 x4 x5 x6 x7 x8 x9 x10 x11 3 p q (View.ld x8 r0_7) (View.ld x9 r0_7) (View.ld x10 r0_7) (View.ld x11 r0_8)
      (fun k => ld_cols x8 1536 inb_S512x2560_S512x512_0_1536 k q (gcol 3 q) rfl) (fun k => ld_cols x9 1536 inb_S512x2560_S512x512_0_1536 k q (gcol 3 q) rfl)
      (fun k => ld_cols x10 1536 inb_S512x2560_S512x512_0_1536 k q (gcol 3 q) rfl) (ld_row x11 1536 inb_S1x2560_S1x512_0_1536 q (gcol 3 q) rfl),
    step_z x0 x1 x2 x4 x5 x6 x7 x8 x9 x10 x11 2 p q (View.ld x8 r0_9) (View.ld x9 r0_9) (View.ld x10 r0_9) (View.ld x11 r0_10)
      (fun k => ld_cols x8 1024 inb_S512x2560_S512x512_0_1024 k q (gcol 2 q) rfl) (fun k => ld_cols x9 1024 inb_S512x2560_S512x512_0_1024 k q (gcol 2 q) rfl)
      (fun k => ld_cols x10 1024 inb_S512x2560_S512x512_0_1024 k q (gcol 2 q) rfl) (ld_row x11 1024 inb_S1x2560_S1x512_0_1024 q (gcol 2 q) rfl),
    step_s x0 x1 x2 x4 x5 x6 x7 x8 x9 x10 x11]
  rfl

/-- The cell-state block the step leaves, at entry `(p, q)`. -/
theorem step_c (p q : Fin 512) :
    out0_13 x0 x1 x2 x3 x4 x5 x6 x7 x8 x9 x10 x11 (ix2 p q)
      = cRow (blockW x4 x5 x6 x7 x8 x9 x10 x11) (fun k => x2 (ix2 p k)) (fun k => x0 (ix2 p k)) (x1 (ix2 p (0 : Fin 1))) (x3 (ix2 p q)) q := by
  unfold out0_13
  rw [View.canon_unit_zero hz]
  simp only [View.ld_unit_zero (S := S512x512) hz, View.ld_unit_zero (S := S512x1) hz, View.ld_unit_zero (S := S1x512) hz]
  exact step_c_pay x0 x1 x2 x3 x4 x5 x6 x7 x8 x9 x10 x11 p q

/-- The hidden-state block the step leaves, at entry `(p, q)`. -/
theorem step_h (p q : Fin 512) :
    out0_12 x0 x1 x2 x3 x4 x5 x6 x7 x8 x9 x10 x11 (ix2 p q)
      = hRow (blockW x4 x5 x6 x7 x8 x9 x10 x11) (fun k => x2 (ix2 p k)) (fun k => x0 (ix2 p k)) (x1 (ix2 p (0 : Fin 1))) (x3 (ix2 p q)) q := by
  unfold out0_12
  rw [View.canon_unit_zero hz]
  simp only [View.ld_unit_zero (S := S512x512) hz, View.ld_unit_zero (S := S512x1) hz, View.ld_unit_zero (S := S1x512) hz]
  rw [pay1_at, step_c_pay x0 x1 x2 x3 x4 x5 x6 x7 x8 x9 x10 x11 p q, pay11_at]
  simp only [pay2_at, pay3_at, pay5_at]
  rw [step_z x0 x1 x2 x4 x5 x6 x7 x8 x9 x10 x11 4 p q (View.ld x8 r0_11) (View.ld x9 r0_11) (View.ld x10 r0_11) (View.ld x11 r0_12)
      (fun k => ld_cols x8 2048 inb_S512x2560_S512x512_0_2048 k q (gcol 4 q) rfl) (fun k => ld_cols x9 2048 inb_S512x2560_S512x512_0_2048 k q (gcol 4 q) rfl)
      (fun k => ld_cols x10 2048 inb_S512x2560_S512x512_0_2048 k q (gcol 4 q) rfl) (ld_row x11 2048 inb_S1x2560_S1x512_0_2048 q (gcol 4 q) rfl)]
  rfl

end Step

end Cert.KernelIdeal.Block

end
-- ==== Proof.KernelArrays.lean ====
/-
  From the grid steps' blocks to the whole result arrays.

  The grid has 32 steps; step `t` holds rows `512 t … 512 t + 511` of `x`, of the elapsed times, of `h` and of the
  previous cell states, and writes back rows `512 t … 512 t + 511` of the two results. Every step holds the same
  weight arrays, which the host cut out of the two weight arguments before the launch: the time gate's matrix cut into
  its rows for `h`, for `x` and for the elapsed time, the gates' matrix cut into its rows for `h`, `x` and the time
  gate, the two biases laid out as rows (changes of float format change nothing at the ideal values). So the weights
  a step reads are the cell's weights of the arguments (`blockW_eq`), a block's row `p` is the argument's row
  `512 t + p`, and what step `t` writes back is block `t` of the cell's whole-array results; the 32 blocks cover
  the arrays.
-/
import proofs.«171538_j69758858821994_2_alg».proof.Proof.Gen.KernelIdeal.Value
import proofs.«171538_j69758858821994_2_alg».proof.Proof.KernelEntries

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Idealize.ShloMosaic.ValueIdx Cert.Cell

variable (m : (ℓ : Loc nD τ sig) → Buf (Elt Ideal) ℓ) (ρ : Dev nD → PrngReg)

/-- The cell's weights of the program's weight arguments. -/
abbrev argW (c : Dev nD) : Weights :=
  ofArrays (m ((c : Thread nD τ).loc main_arg4)) (m ((c : Thread nD τ).loc main_arg5)) (m ((c : Thread nD τ).loc main_arg6)) (m ((c : Thread nD τ).loc main_arg7))

/-- The new cell states of all 16384 rows, of the program's arguments. -/
abbrev cOut (c : Dev nD) : Arr 16384 512 :=
  cArr (N := 16384) (argW m c) (m ((c : Thread nD τ).loc main_arg0)) (m ((c : Thread nD τ).loc main_arg1)) (m ((c : Thread nD τ).loc main_arg2)) (m ((c : Thread nD τ).loc main_arg3))

/-- The new hidden states of all 16384 rows, of the program's arguments. -/
abbrev hOut (c : Dev nD) : Arr 16384 512 :=
  hArr (N := 16384) (argW m c) (m ((c : Thread nD τ).loc main_arg0)) (m ((c : Thread nD τ).loc main_arg1)) (m ((c : Thread nD τ).loc main_arg2)) (m ((c : Thread nD τ).loc main_arg3))

/-! ## The index maps, decided over the 32 grid steps -/

/-- The row windows (the four row inputs and the two results) are at block `(t, 0)` at step `t`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- The weight windows are at block `(0, 0)` at every step. -/
theorem idx_weights : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Row `p` of step `t`'s blocks is row `512 t + p` of the arrays. -/
def row (t : Fin cfg0.N) (p : Fin 512) : Fin 16384 :=
  ⟨512 * t.val + p.val, by have ht : t.val < 32 := lt_of_lt_of_eq t.isLt N_0; have := p.isLt; omega⟩

/-! ## The weight arrays as the host prepared them -/

theorem V_v6 (c : Dev nD) : (V m c main_v6 : S512x512.Idx → EReal)
    = extractStridedSlice S512x512 ![0, 0] (m ((c : Thread nD τ).loc main_arg4)) slices_S1025x512_S512x512_0_0 := by
  unfold V; after_results; rfl

theorem V_v7 (c : Dev nD) : (V m c main_v7 : S512x512.Idx → EReal)
    = extractStridedSlice S512x512 ![512, 0] (m ((c : Thread nD τ).loc main_arg4)) slices_S1025x512_S512x512_512_0 := by
  unfold V; after_results; rfl

theorem V_v2 (c : Dev nD) : V m c main_v2
    = extractStridedSlice S1x512 ![1024, 0] (m ((c : Thread nD τ).loc main_arg4)) slices_S1025x512_S1x512_1024_0 := by
  unfold V; after_results

theorem V_v11 (c : Dev nD) : V m c main_v11 = shapeCast S1x512 (m ((c : Thread nD τ).loc main_arg5)) shapeCasts_S512_S1x512 := by
  unfold V; after_results; rfl

theorem V_v8 (c : Dev nD) : (V m c main_v8 : S512x2560.Idx → EReal)
    = extractStridedSlice S512x2560 ![0, 0] (m ((c : Thread nD τ).loc main_arg6)) slices_S1536x2560_S512x2560_0_0 := by
  unfold V; after_results; rfl

theorem V_v9 (c : Dev nD) : (V m c main_v9 : S512x2560.Idx → EReal)
    = extractStridedSlice S512x2560 ![512, 0] (m ((c : Thread nD τ).loc main_arg6)) slices_S1536x2560_S512x2560_512_0 := by
  unfold V; after_results; rfl

theorem V_v10 (c : Dev nD) : (V m c main_v10 : S512x2560.Idx → EReal)
    = extractStridedSlice S512x2560 ![1024, 0] (m ((c : Thread nD τ).loc main_arg6)) slices_S1536x2560_S512x2560_1024_0 := by
  unfold V; after_results; rfl

theorem V_v12 (c : Dev nD) : V m c main_v12 = shapeCast S1x2560 (m ((c : Thread nD τ).loc main_arg7)) shapeCasts_S2560_S1x2560 := by
  unfold V; after_results; rfl

/-! ## The weights a step holds -/

theorem blk4_at (c : Dev nD) (t : Fin cfg0.N) (k : Fin 512) (q : Fin 512) :
    iblk m c 4 t (ix2 k q) = (V m c main_v6 : S512x512.Idx → EReal) (ix2 k q) := by
  obtain ⟨e0, e1⟩ : win0_4.index t (0 : Fin 2) = 0 ∧ win0_4.index t (1 : Fin 2) = 0 := by
    have h := idx_weights t; simp only [and_assoc] at h; tauto
  show (V m c main_v6 : S512x512.Idx → EReal) (((cfg0.win 4).blk t).view.emb (ix2 k q)) = _
  refine congrArg _ (funext fun a => Fin.ext ?_)
  match a with
  | ⟨0, _⟩ => show win0_4.index t (0 : Fin 2) * 512 + 1 * k.val = k.val; omega
  | ⟨1, _⟩ => show win0_4.index t (1 : Fin 2) * 512 + 1 * q.val = q.val; omega

theorem blk5_at (c : Dev nD) (t : Fin cfg0.N) (k : Fin 512) (q : Fin 512) :
    iblk m c 5 t (ix2 k q) = (V m c main_v7 : S512x512.Idx → EReal) (ix2 k q) := by
  obtain ⟨e0, e1⟩ : win0_5.index t (0 : Fin 2) = 0 ∧ win0_5.index t (1 : Fin 2) = 0 := by
    have h := idx_weights t; simp only [and_assoc] at h; tauto
  show (V m c main_v7 : S512x512.Idx → EReal) (((cfg0.win 5).blk t).view.emb (ix2 k q)) = _
  refine congrArg _ (funext fun a => Fin.ext ?_)
  match a with
  | ⟨0, _⟩ => show win0_5.index t (0 : Fin 2) * 512 + 1 * k.val = k.val; omega
  | ⟨1, _⟩ => show win0_5.index t (1 : Fin 2) * 512 + 1 * q.val = q.val; omega

theorem blk6_at (c : Dev nD) (t : Fin cfg0.N) (k : Fin 1) (q : Fin 512) :
    iblk m c 6 t (ix2 k q) = (V m c main_v2 : S1x512.Idx → EReal) (ix2 k q) := by
  obtain ⟨e0, e1⟩ : win0_6.index t (0 : Fin 2) = 0 ∧ win0_6.index t (1 : Fin 2) = 0 := by
    have h := idx_weights t; simp only [and_assoc] at h; tauto
  show (V m c main_v2 : S1x512.Idx → EReal) (((cfg0.win 6).blk t).view.emb (ix2 k q)) = _
  refine congrArg _ (funext fun a => Fin.ext ?_)
  match a with
  | ⟨0, _⟩ => show win0_6.index t (0 : Fin 2) * 1 + 1 * k.val = k.val; omega
  | ⟨1, _⟩ => show win0_6.index t (1 : Fin 2) * 512 + 1 * q.val = q.val; omega

theorem blk7_at (c : Dev nD) (t : Fin cfg0.N) (k : Fin 1) (q : Fin 512) :
    iblk m c 7 t (ix2 k q) = (V m c main_v11 : S1x512.Idx → EReal) (ix2 k q) := by
  obtain ⟨e0, e1⟩ : win0_7.index t (0 : Fin 2) = 0 ∧ win0_7.index t (1 : Fin 2) = 0 := by
    have h := idx_weights t; simp only [and_assoc] at h; tauto
  show (V m c main_v11 : S1x512.Idx → EReal) (((cfg0.win 7).blk t).view.emb (ix2 k q)) = _
  refine congrArg _ (funext fun a => Fin.ext ?_)
  match a with
  | ⟨0, _⟩ => show win0_7.index t (0 : Fin 2) * 1 + 1 * k.val = k.val; omega
  | ⟨1, _⟩ => show win0_7.index t (1 : Fin 2) * 512 + 1 * q.val = q.val; omega

theorem blk8_at (c : Dev nD) (t : Fin cfg0.N) (k : Fin 512) (q : Fin 2560) :
    iblk m c 8 t (ix2 k q) = (V m c main_v8 : S512x2560.Idx → EReal) (ix2 k q) := by
  obtain ⟨e0, e1⟩ : win0_8.index t (0 : Fin 2) = 0 ∧ win0_8.index t (1 : Fin 2) = 0 := by
    have h := idx_weights t; simp only [and_assoc] at h; tauto
  show (V m c main_v8 : S512x2560.Idx → EReal) (((cfg0.win 8).blk t).view.emb (ix2 k q)) = _
  refine congrArg _ (funext fun a => Fin.ext ?_)
  match a with
  | ⟨0, _⟩ => show win0_8.index t (0 : Fin 2) * 512 + 1 * k.val = k.val; omega
  | ⟨1, _⟩ => show win0_8.index t (1 : Fin 2) * 2560 + 1 * q.val = q.val; omega

theorem blk9_at (c : Dev nD) (t : Fin cfg0.N) (k : Fin 512) (q : Fin 2560) :
    iblk m c 9 t (ix2 k q) = (V m c main_v9 : S512x2560.Idx → EReal) (ix2 k q) := by
  obtain ⟨e0, e1⟩ : win0_9.index t (0 : Fin 2) = 0 ∧ win0_9.index t (1 : Fin 2) = 0 := by
    have h := idx_weights t; simp only [and_assoc] at h; tauto
  show (V m c main_v9 : S512x2560.Idx → EReal) (((cfg0.win 9).blk t).view.emb (ix2 k q)) = _
  refine congrArg _ (funext fun a => Fin.ext ?_)
  match a with
  | ⟨0, _⟩ => show win0_9.index t (0 : Fin 2) * 512 + 1 * k.val = k.val; omega
  | ⟨1, _⟩ => show win0_9.index t (1 : Fin 2) * 2560 + 1 * q.val = q.val; omega

theorem blk10_at (c : Dev nD) (t : Fin cfg0.N) (k : Fin 512) (q : Fin 2560) :
    iblk m c 10 t (ix2 k q) = (V m c main_v10 : S512x2560.Idx → EReal) (ix2 k q) := by
  obtain ⟨e0, e1⟩ : win0_10.index t (0 : Fin 2) = 0 ∧ win0_10.index t (1 : Fin 2) = 0 := by
    have h := idx_weights t; simp only [and_assoc] at h; tauto
  show (V m c main_v10 : S512x2560.Idx → EReal) (((cfg0.win 10).blk t).view.emb (ix2 k q)) = _
  refine congrArg _ (funext fun a => Fin.ext ?_)
  match a with
  | ⟨0, _⟩ => show win0_10.index t (0 : Fin 2) * 512 + 1 * k.val = k.val; omega
  | ⟨1, _⟩ => show win0_10.index t (1 : Fin 2) * 2560 + 1 * q.val = q.val; omega

theorem blk11_at (c : Dev nD) (t : Fin cfg0.N) (k : Fin 1) (q : Fin 2560) :
    iblk m c 11 t (ix2 k q) = (V m c main_v12 : S1x2560.Idx → EReal) (ix2 k q) := by
  obtain ⟨e0, e1⟩ : win0_11.index t (0 : Fin 2) = 0 ∧ win0_11.index t (1 : Fin 2) = 0 := by
    have h := idx_weights t; simp only [and_assoc] at h; tauto
  show (V m c main_v12 : S1x2560.Idx → EReal) (((cfg0.win 11).blk t).view.emb (ix2 k q)) = _
  refine congrArg _ (funext fun a => Fin.ext ?_)
  match a with
  | ⟨0, _⟩ => show win0_11.index t (0 : Fin 2) * 1 + 1 * k.val = k.val; omega
  | ⟨1, _⟩ => show win0_11.index t (1 : Fin 2) * 2560 + 1 * q.val = q.val; omega

/-- The weights every step holds are the cell's weights of the arguments. -/
theorem blockW_eq (c : Dev nD) (t : Fin cfg0.N) :
    blockW (iblk m c 4 t) (iblk m c 5 t) (iblk m c 6 t) (iblk m c 7 t) (iblk m c 8 t) (iblk m c 9 t) (iblk m c 10 t)
      (iblk m c 11 t) = argW m c := by
  refine Weights.ext (funext fun k => funext fun q => ?_) (funext fun k => funext fun q => ?_) (funext fun q => ?_)
    (funext fun q => ?_) (funext fun g => funext fun k => funext fun q => ?_)
    (funext fun g => funext fun k => funext fun q => ?_) (funext fun g => funext fun k => funext fun q => ?_)
    (funext fun g => funext fun q => ?_)
  · show iblk m c 4 t (ix2 k q) = _
    rw [blk4_at, V_v6]
    exact slice2_axis0_apply 0 _ _ k q _ (by show k.val = 0 + k.val; omega)
  · show iblk m c 5 t (ix2 k q) = _
    rw [blk5_at, V_v7]
    exact slice2_axis0_apply 512 _ _ k q _ rfl
  · show iblk m c 6 t (ix2 (0 : Fin 1) q) = _
    rw [blk6_at, V_v2]
    exact slice2_axis0_apply 1024 _ _ (0 : Fin 1) q _ rfl
  · show iblk m c 7 t (ix2 (0 : Fin 1) q) = _
    rw [blk7_at, V_v11]
    exact shapeCast_a_1a_apply _ _ (0 : Fin 1) q
  · show iblk m c 8 t (ix2 k (gcol g q)) = _
    rw [blk8_at, V_v8]
    exact slice2_axis0_apply 0 _ _ k (gcol g q) _ (by show k.val = 0 + k.val; omega)
  · show iblk m c 9 t (ix2 k (gcol g q)) = _
    rw [blk9_at, V_v9]
    exact slice2_axis0_apply 512 _ _ k (gcol g q) _ rfl
  · show iblk m c 10 t (ix2 k (gcol g q)) = _
    rw [blk10_at, V_v10]
    exact slice2_axis0_apply 1024 _ _ k (gcol g q) _ rfl
  · show iblk m c 11 t (ix2 (0 : Fin 1) (gcol g q)) = _
    rw [blk11_at, V_v12]
    exact shapeCast_a_1a_apply _ _ (0 : Fin 1) (gcol g q)

/-! ## The rows a step holds -/

theorem x_at (c : Dev nD) (t : Fin cfg0.N) (p : Fin 512) (k : Fin 512) :
    iblk m c 0 t (ix2 p k) = (m ((c : Thread nD τ).loc main_arg0)) (ix2 (row t p) k) := by
  obtain ⟨e0, e1⟩ : win0_0.index t (0 : Fin 2) = t.val ∧ win0_0.index t (1 : Fin 2) = 0 := by
    have h := idx_rows t; simp only [and_assoc] at h; tauto
  have e : iblk m c 0 t (ix2 p k) = V m c main_arg0 (ix2 (row t p) k) := by
    show V m c main_arg0 (((cfg0.win 0).blk t).view.emb (ix2 p k)) = V m c main_arg0 (ix2 (row t p) k)
    refine congrArg _ (funext fun a => Fin.ext ?_)
    match a with
    | ⟨0, _⟩ => show win0_0.index t (0 : Fin 2) * 512 + 1 * p.val = 512 * t.val + p.val; omega
    | ⟨1, _⟩ => show win0_0.index t (1 : Fin 2) * 512 + 1 * k.val = k.val; omega
  rw [e, V_main_arg0]

theorem d_at (c : Dev nD) (t : Fin cfg0.N) (p : Fin 512) (k : Fin 1) :
    iblk m c 1 t (ix2 p k) = (m ((c : Thread nD τ).loc main_arg1)) (ix2 (row t p) k) := by
  obtain ⟨e0, e1⟩ : win0_1.index t (0 : Fin 2) = t.val ∧ win0_1.index t (1 : Fin 2) = 0 := by
    have h := idx_rows t; simp only [and_assoc] at h; tauto
  have e : iblk m c 1 t (ix2 p k) = V m c main_arg1 (ix2 (row t p) k) := by
    show V m c main_arg1 (((cfg0.win 1).blk t).view.emb (ix2 p k)) = V m c main_arg1 (ix2 (row t p) k)
    refine congrArg _ (funext fun a => Fin.ext ?_)
    match a with
    | ⟨0, _⟩ => show win0_1.index t (0 : Fin 2) * 512 + 1 * p.val = 512 * t.val + p.val; omega
    | ⟨1, _⟩ => show win0_1.index t (1 : Fin 2) * 1 + 1 * k.val = k.val; omega
  rw [e, V_main_arg1]

theorem h_at (c : Dev nD) (t : Fin cfg0.N) (p : Fin 512) (k : Fin 512) :
    iblk m c 2 t (ix2 p k) = (m ((c : Thread nD τ).loc main_arg2)) (ix2 (row t p) k) := by
  obtain ⟨e0, e1⟩ : win0_2.index t (0 : Fin 2) = t.val ∧ win0_2.index t (1 : Fin 2) = 0 := by
    have h := idx_rows t; simp only [and_assoc] at h; tauto
  have e : iblk m c 2 t (ix2 p k) = V m c main_arg2 (ix2 (row t p) k) := by
    show V m c main_arg2 (((cfg0.win 2).blk t).view.emb (ix2 p k)) = V m c main_arg2 (ix2 (row t p) k)
    refine congrArg _ (funext fun a => Fin.ext ?_)
    match a with
    | ⟨0, _⟩ => show win0_2.index t (0 : Fin 2) * 512 + 1 * p.val = 512 * t.val + p.val; omega
    | ⟨1, _⟩ => show win0_2.index t (1 : Fin 2) * 512 + 1 * k.val = k.val; omega
  rw [e, V_main_arg2]

theorem cp_at (c : Dev nD) (t : Fin cfg0.N) (p : Fin 512) (k : Fin 512) :
    iblk m c 3 t (ix2 p k) = (m ((c : Thread nD τ).loc main_arg3)) (ix2 (row t p) k) := by
  obtain ⟨e0, e1⟩ : win0_3.index t (0 : Fin 2) = t.val ∧ win0_3.index t (1 : Fin 2) = 0 := by
    have h := idx_rows t; simp only [and_assoc] at h; tauto
  have e : iblk m c 3 t (ix2 p k) = V m c main_arg3 (ix2 (row t p) k) := by
    show V m c main_arg3 (((cfg0.win 3).blk t).view.emb (ix2 p k)) = V m c main_arg3 (ix2 (row t p) k)
    refine congrArg _ (funext fun a => Fin.ext ?_)
    match a with
    | ⟨0, _⟩ => show win0_3.index t (0 : Fin 2) * 512 + 1 * p.val = 512 * t.val + p.val; omega
    | ⟨1, _⟩ => show win0_3.index t (1 : Fin 2) * 512 + 1 * k.val = k.val; omega
  rw [e, V_main_arg3]

/-! ## The two results -/

/-- Entry `(p, q)` of step `t`'s block of the result is entry `(512 t + p, q)` of the array. -/
theorem emb13 (t : Fin cfg0.N) (p q : Fin 512) : ((cfg0.win 13).blk t).view.emb (ix2 p q) = ix2 (row t p) q := by
  obtain ⟨e0, e1⟩ : win0_13.index t (0 : Fin 2) = t.val ∧ win0_13.index t (1 : Fin 2) = 0 := by
    have h := idx_rows t; simp only [and_assoc] at h; tauto
  refine funext fun a => Fin.ext ?_
  match a with
  | ⟨0, _⟩ => show win0_13.index t (0 : Fin 2) * 512 + 1 * p.val = 512 * t.val + p.val; omega
  | ⟨1, _⟩ => show win0_13.index t (1 : Fin 2) * 512 + 1 * q.val = q.val; omega

/-- What step `t` writes back is block `t` of the cell's new cell states of the arguments. -/
theorem flushed13_eq (c : Dev nD) (t : Fin cfg0.N) :
    (dats m 0 c).flushed 13 t = ((cfg0.win 13).blk t).view.read (Elt Ideal) (cOut m c) := by
  rw [Value.flushed13]
  refine funext fun y => ?_
  obtain ⟨p, q, rfl⟩ : ∃ (p q : Fin 512), y = ix2 p q := ⟨y 0, y 1, eq_ix2 (n0 := 512) (n1 := 512) y⟩
  show out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 p q)
    = cOut m c (((cfg0.win 13).blk t).view.emb (ix2 p q))
  rw [step_c, emb13 t p q, blockW_eq m c t]
  simp only [x_at m c t, h_at m c t, d_at m c t, cp_at m c t]
  rfl

theorem mem_blk13 (t : Fin cfg0.N) (i : S16384x512.Idx) :
    i ∈ ((cfg0.win 13).blk t).view.set ↔ ∀ a : Fin 2, win0_13.index t a * S512x512.size a ≤ (i a).val
      ∧ (i a).val < win0_13.index t a * S512x512.size a + S512x512.size a := by
  show i ∈ ((View.whole main_v13_1).slice (win0_13.rect t)).set ↔ _
  rw [View.set_slice_whole, Rect.mem_set_unit]
  exact Iff.rfl

/-- Row `r` lies in step `r / 512`'s block. -/
theorem cover13 (i : S16384x512.Idx) :
    ∃ t : Fin cfg0.N, (cfg0.win 13).flush t = true ∧ i ∈ ((cfg0.win 13).blk t).view.set := by
  have hi0 : (i 0).val < 16384 := (i 0).isLt
  have hi1 : (i 1).val < 512 := (i 1).isLt
  obtain ⟨t, ht⟩ : ∃ t : Fin cfg0.N, t.val = (i 0).val / 512 :=
    ⟨⟨(i 0).val / 512, by rw [show cfg0.N = 32 from N_0]; omega⟩, rfl⟩
  obtain ⟨e0, e1⟩ : win0_13.index t (0 : Fin 2) = t.val ∧ win0_13.index t (1 : Fin 2) = 0 := by
    have h := idx_rows t; simp only [and_assoc] at h; tauto
  refine ⟨t, flush0_13 t, ?_⟩
  rw [mem_blk13]
  intro a
  match a with
  | ⟨0, _⟩ =>
    show win0_13.index t (0 : Fin 2) * 512 ≤ (i 0).val ∧ (i 0).val < win0_13.index t (0 : Fin 2) * 512 + 512
    omega
  | ⟨1, _⟩ =>
    show win0_13.index t (1 : Fin 2) * 512 ≤ (i 1).val ∧ (i 1).val < win0_13.index t (1 : Fin 2) * 512 + 512
    omega

/-- After the run the result array is the cell's new cell states of the arguments. -/
theorem final13 (c : Dev nD) : (dats m 0 c).arrAt 13 cfg0.N = cOut m c :=
  (dats m 0 c).arrAt_eq_of_cover 13 (cOut m c) (fun t _ => flushed13_eq m c t) cover13

/-- Entry `(p, q)` of step `t`'s block of the result is entry `(512 t + p, q)` of the array. -/
theorem emb12 (t : Fin cfg0.N) (p q : Fin 512) : ((cfg0.win 12).blk t).view.emb (ix2 p q) = ix2 (row t p) q := by
  obtain ⟨e0, e1⟩ : win0_12.index t (0 : Fin 2) = t.val ∧ win0_12.index t (1 : Fin 2) = 0 := by
    have h := idx_rows t; simp only [and_assoc] at h; tauto
  refine funext fun a => Fin.ext ?_
  match a with
  | ⟨0, _⟩ => show win0_12.index t (0 : Fin 2) * 512 + 1 * p.val = 512 * t.val + p.val; omega
  | ⟨1, _⟩ => show win0_12.index t (1 : Fin 2) * 512 + 1 * q.val = q.val; omega

/-- What step `t` writes back is block `t` of the cell's new hidden states of the arguments. -/
theorem flushed12_eq (c : Dev nD) (t : Fin cfg0.N) :
    (dats m 0 c).flushed 12 t = ((cfg0.win 12).blk t).view.read (Elt Ideal) (hOut m c) := by
  rw [Value.flushed12]
  refine funext fun y => ?_
  obtain ⟨p, q, rfl⟩ : ∃ (p q : Fin 512), y = ix2 p q := ⟨y 0, y 1, eq_ix2 (n0 := 512) (n1 := 512) y⟩
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 p q)
    = hOut m c (((cfg0.win 12).blk t).view.emb (ix2 p q))
  rw [step_h, emb12 t p q, blockW_eq m c t]
  simp only [x_at m c t, h_at m c t, d_at m c t, cp_at m c t]
  rfl

theorem mem_blk12 (t : Fin cfg0.N) (i : S16384x512.Idx) :
    i ∈ ((cfg0.win 12).blk t).view.set ↔ ∀ a : Fin 2, win0_12.index t a * S512x512.size a ≤ (i a).val
      ∧ (i a).val < win0_12.index t a * S512x512.size a + S512x512.size a := by
  show i ∈ ((View.whole main_v13_0).slice (win0_12.rect t)).set ↔ _
  rw [View.set_slice_whole, Rect.mem_set_unit]
  exact Iff.rfl

/-- Row `r` lies in step `r / 512`'s block. -/
theorem cover12 (i : S16384x512.Idx) :
    ∃ t : Fin cfg0.N, (cfg0.win 12).flush t = true ∧ i ∈ ((cfg0.win 12).blk t).view.set := by
  have hi0 : (i 0).val < 16384 := (i 0).isLt
  have hi1 : (i 1).val < 512 := (i 1).isLt
  obtain ⟨t, ht⟩ : ∃ t : Fin cfg0.N, t.val = (i 0).val / 512 :=
    ⟨⟨(i 0).val / 512, by rw [show cfg0.N = 32 from N_0]; omega⟩, rfl⟩
  obtain ⟨e0, e1⟩ : win0_12.index t (0 : Fin 2) = t.val ∧ win0_12.index t (1 : Fin 2) = 0 := by
    have h := idx_rows t; simp only [and_assoc] at h; tauto
  refine ⟨t, flush0_12 t, ?_⟩
  rw [mem_blk12]
  intro a
  match a with
  | ⟨0, _⟩ =>
    show win0_12.index t (0 : Fin 2) * 512 ≤ (i 0).val ∧ (i 0).val < win0_12.index t (0 : Fin 2) * 512 + 512
    omega
  | ⟨1, _⟩ =>
    show win0_12.index t (1 : Fin 2) * 512 ≤ (i 1).val ∧ (i 1).val < win0_12.index t (1 : Fin 2) * 512 + 512
    omega

/-- After the run the result array is the cell's new hidden states of the arguments. -/
theorem final12 (c : Dev nD) : (dats m 0 c).arrAt 12 cfg0.N = hOut m c :=
  (dats m 0 c).arrAt_eq_of_cover 12 (hOut m c) (fun t _ => flushed12_eq m c t) cover12

/-- The kernel's run, read: the two result arrays end at the cell's new hidden states and new cell states of the
    arguments, the arguments unchanged. -/
theorem run : θ_run defs (onTc (τ := τ) (main (F := Ideal))) ⟨m, fun _ => 0, ρ⟩ fun r => ∀ c : Dev nD,
      r.2.mem ((c : Thread nD τ).loc main_v13_0) = hOut m c
      ∧ r.2.mem ((c : Thread nD τ).loc main_v13_1) = cOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final12 m c), (h c).2.1.trans (final13 m c), (h c).2.2⟩)
    (Cert.KernelIdeal.Value.run_blocks m ρ)

end Cert.KernelIdeal.Arrays

end
-- ==== Proof.LibJoinedColumns.lean ====
/-
  Three arrays of the same number of rows joined along their columns — `[N, a]`, `[N, b]`, `[N, c]` into
  `[N, a + b + c]`, what `concatenate(…, axis = 1)` of three matrices prints as — read at one entry: a column in the
  first `a` reads the first array, one in the next `b` the second at the column less `a`, one in the last `c` the
  third at the column less `a + b`. Generic in the extents and in the element type.
-/
import Idealize.ShloMosaic.Lib.Pipeline.Value
import Idealize.ShloMosaic.Lib.ValueIdx

noncomputable section

namespace Cert.LibJoinedColumns

open Idealize.ShloMosaic Idealize.ShloMosaic.ValueIdx

section Joined

variable {α : Type} {N a b c t : Nat}
  (A : (⟨2, ![N, a]⟩ : Shape).Idx → α) (B : (⟨2, ![N, b]⟩ : Shape).Idx → α) (C : (⟨2, ![N, c]⟩ : Shape).Idx → α)
  (h : Shape.Concatenates ([(⟨(⟨2, ![N, a]⟩ : Shape), A⟩ : (s : Shape) × (s.Idx → α)), ⟨(⟨2, ![N, b]⟩ : Shape), B⟩,
        ⟨(⟨2, ![N, c]⟩ : Shape), C⟩].map (·.1)) ⟨2, ![N, t]⟩ 1)

/-- A column in the first array's stretch reads the first array. -/
theorem joined3_first (r : Fin N) (k : Fin a) (j : Fin t) (hj : j.val = k.val) :
    concatenate ⟨2, ![N, t]⟩ 1 [⟨(⟨2, ![N, a]⟩ : Shape), A⟩, ⟨(⟨2, ![N, b]⟩ : Shape), B⟩, ⟨(⟨2, ![N, c]⟩ : Shape), C⟩] h (ix2 r j)
      = A (ix2 r k) := by
  refine concatenate_apply_piece (1 : Fin 2) _ h (ix2 r j) 0 (by show 0 < 3; omega) ⟨2, ![N, a]⟩ A rfl rfl 0 rfl (ix2 r k) ?_ ?_
  · intro d hd
    match d with
    | ⟨0, _⟩ => rfl
    | ⟨1, _⟩ => exact absurd rfl hd
  · show 0 + k.val = j.val; omega

/-- A column in the second array's stretch reads the second array. -/
theorem joined3_second (r : Fin N) (k : Fin b) (j : Fin t) (hj : j.val = a + k.val) :
    concatenate ⟨2, ![N, t]⟩ 1 [⟨(⟨2, ![N, a]⟩ : Shape), A⟩, ⟨(⟨2, ![N, b]⟩ : Shape), B⟩, ⟨(⟨2, ![N, c]⟩ : Shape), C⟩] h (ix2 r j)
      = B (ix2 r k) := by
  refine concatenate_apply_piece (1 : Fin 2) _ h (ix2 r j) 1 (by show 1 < 3; omega) ⟨2, ![N, b]⟩ B rfl rfl a ?_ (ix2 r k) ?_ ?_
  · show a + 0 = a; omega
  · intro d hd
    match d with
    | ⟨0, _⟩ => rfl
    | ⟨1, _⟩ => exact absurd rfl hd
  · show a + k.val = j.val; omega

/-- A column in the third array's stretch reads the third array. -/
theorem joined3_third (r : Fin N) (k : Fin c) (j : Fin t) (hj : j.val = a + b + k.val) :
    concatenate ⟨2, ![N, t]⟩ 1 [⟨(⟨2, ![N, a]⟩ : Shape), A⟩, ⟨(⟨2, ![N, b]⟩ : Shape), B⟩, ⟨(⟨2, ![N, c]⟩ : Shape), C⟩] h (ix2 r j)
      = C (ix2 r k) := by
  refine concatenate_apply_piece (1 : Fin 2) _ h (ix2 r j) 2 (by show 2 < 3; omega) ⟨2, ![N, c]⟩ C rfl rfl (a + b) ?_ (ix2 r k) ?_ ?_
  · show a + (b + 0) = a + b; omega
  · intro d hd
    match d with
    | ⟨0, _⟩ => rfl
    | ⟨1, _⟩ => exact absurd rfl hd
  · show a + b + k.val = j.val; omega

end Joined

end Cert.LibJoinedColumns

end
-- ==== Proof.ReferenceEntries.lean ====
/-
  What the reference computes, entry by entry, at the ideal values.

  The reference joins each row `[h | x | d]` into one row of 1025 entries and multiplies it by the time gate's whole
  matrix; it joins `[h | x | s]` into a row of 1536 entries and multiplies it by the gates' whole matrix, then cuts the
  2560 result columns into the five gates. Read at one entry, a product with a joined row is the sum over the joined
  index, which splits at the joints (`Cell.joined_dot`, `Cell.joined_dot3`) into the sums over `h`, over `x` and over
  the last part, each against its own stretch of the matrix's rows: the cell's `sRow` and `zRow`. The reference spells
  the logistic function as `1 / (1 + exp (−z))`, which is the logistic function on the extended reals.
-/
import proofs.«171538_j69758858821994_2_alg».proof.Proof.Gen.ReferenceIdeal.Read
import proofs.«171538_j69758858821994_2_alg».proof.Proof.Cell
import proofs.«171538_j69758858821994_2_alg».proof.Proof.LibJoinedColumns

noncomputable section

open scoped BigOperators

namespace Cert.ReferenceIdeal.Entry

open Cert.ReferenceIdeal Cert.ReferenceIdeal.Gen Cert.ReferenceIdeal.Read Idealize.ShloMosaic Idealize.ShloMosaic.ValueIdx
open Cert.Cell Cert.LibJoinedColumns

/-! ## The stages of the reference at an entry -/

section Stages

variable (x0 : (⟨S16384x512, .f32⟩ : BufTy).Contents (Elt Ideal)) (x1 : (⟨S16384x1, .f32⟩ : BufTy).Contents (Elt Ideal))
  (x2 x3 : (⟨S16384x512, .f32⟩ : BufTy).Contents (Elt Ideal)) (x4 : (⟨S1025x512, .f32⟩ : BufTy).Contents (Elt Ideal))
  (x5 : (⟨S512, .f32⟩ : BufTy).Contents (Elt Ideal)) (x6 : (⟨S1536x2560, .f32⟩ : BufTy).Contents (Elt Ideal))
  (x7 : (⟨S2560, .f32⟩ : BufTy).Contents (Elt Ideal))

theorem lidx1 (r : Fin 16384) (q : Fin 512) (k : Fin 1025) : lidx_main_v1 (ix2 r q) k = ix2 r k :=
  funext fun a => Fin.ext (by match a with | ⟨0, _⟩ => rfl | ⟨1, _⟩ => rfl)
theorem ridx1 (r : Fin 16384) (q : Fin 512) (k : Fin 1025) : ridx_main_v1 (ix2 r q) k = ix2 k q :=
  funext fun a => Fin.ext (by match a with | ⟨0, _⟩ => rfl | ⟨1, _⟩ => rfl)
theorem idx23 (r : Fin 16384) (q : Fin 512) : idx_main_v2 (idx_main_v3 (ix2 r q)) = ix1 q :=
  funext fun a => Fin.ext (by match a with | ⟨0, _⟩ => rfl)
theorem lidx7 (r : Fin 16384) (j : Fin 2560) (k : Fin 1536) : lidx_main_v7 (ix2 r j) k = ix2 r k :=
  funext fun a => Fin.ext (by match a with | ⟨0, _⟩ => rfl | ⟨1, _⟩ => rfl)
theorem ridx7 (r : Fin 16384) (j : Fin 2560) (k : Fin 1536) : ridx_main_v7 (ix2 r j) k = ix2 k j :=
  funext fun a => Fin.ext (by match a with | ⟨0, _⟩ => rfl | ⟨1, _⟩ => rfl)
theorem idx89 (r : Fin 16384) (j : Fin 2560) : idx_main_v8 (idx_main_v9 (ix2 r j)) = ix1 j :=
  funext fun a => Fin.ext (by match a with | ⟨0, _⟩ => rfl)
theorem idx11 (r : Fin 16384) (q : Fin 512) : idx_main_v11 (ix2 r q) = ix2 r (gcol 0 q) :=
  funext fun a => Fin.ext (by match a with | ⟨0, _⟩ => rfl | ⟨1, _⟩ => show q.val = 512 * 0 + q.val; omega)
theorem idx18 (r : Fin 16384) (q : Fin 512) : idx_main_v18 (ix2 r q) = ix2 r (gcol 1 q) :=
  funext fun a => Fin.ext (by match a with | ⟨0, _⟩ => rfl | ⟨1, _⟩ => show 512 + q.val = 512 * 1 + q.val; omega)
theorem idx25 (r : Fin 16384) (q : Fin 512) : idx_main_v25 (ix2 r q) = ix2 r (gcol 2 q) :=
  funext fun a => Fin.ext (by match a with | ⟨0, _⟩ => rfl | ⟨1, _⟩ => show 1024 + q.val = 512 * 2 + q.val; omega)
theorem idx32 (r : Fin 16384) (q : Fin 512) : idx_main_v32 (ix2 r q) = ix2 r (gcol 3 q) :=
  funext fun a => Fin.ext (by match a with | ⟨0, _⟩ => rfl | ⟨1, _⟩ => show 1536 + q.val = 512 * 3 + q.val; omega)
theorem idx34 (r : Fin 16384) (q : Fin 512) : idx_main_v34 (ix2 r q) = ix2 r (gcol 4 q) :=
  funext fun a => Fin.ext (by match a with | ⟨0, _⟩ => rfl | ⟨1, _⟩ => show 2048 + q.val = 512 * 4 + q.val; omega)

/-- The joined row `[h | x | d]`, entry by entry. -/
theorem v0_h (r : Fin 16384) (k : Fin 512) (hk : k.val < 1025) :
    val_main_v0 (F := Ideal) x0 x1 x2 (ix2 r (⟨k.val, hk⟩ : Fin 1025)) = x2 (ix2 r k) :=
  joined3_first x2 x0 x1 _ r k _ rfl
theorem v0_x (r : Fin 16384) (k : Fin 512) (hk : 512 + k.val < 1025) :
    val_main_v0 (F := Ideal) x0 x1 x2 (ix2 r (⟨512 + k.val, hk⟩ : Fin 1025)) = x0 (ix2 r k) :=
  joined3_second x2 x0 x1 _ r k _ rfl
theorem v0_d (r : Fin 16384) (hk : 1024 < 1025) :
    val_main_v0 (F := Ideal) x0 x1 x2 (ix2 r (⟨1024, hk⟩ : Fin 1025)) = x1 (ix2 r (0 : Fin 1)) :=
  joined3_third x2 x0 x1 _ r (0 : Fin 1) _ rfl

/-- The reference's time gate is the cell's, row by row. -/
theorem s_at (r : Fin 16384) (q : Fin 512) :
    val_main_v5 (F := Ideal) x0 x1 x2 x4 x5 (ix2 r q) = sRow (ofArrays x4 x5 x6 x7) (fun k => x2 (ix2 r k)) (fun k => x0 (ix2 r k)) (x1 (ix2 r (0 : Fin 1))) q := by
  rw [val_main_v5_apply, val_main_v4_apply, val_main_v1_apply, val_main_v3_apply, val_main_v2_apply]
  simp only [lidx1, ridx1, idx23]
  rw [joined_dot]
  simp only [v0_h, v0_x, v0_d]
  rfl

/-- The joined row `[h | x | s]`, entry by entry. -/
theorem v6_h (r : Fin 16384) (k : Fin 512) (hk : k.val < 1536) :
    val_main_v6 (F := Ideal) x0 x1 x2 x4 x5 (ix2 r (⟨k.val, hk⟩ : Fin 1536)) = x2 (ix2 r k) :=
  joined3_first x2 x0 (val_main_v5 (F := Ideal) x0 x1 x2 x4 x5) _ r k _ rfl
theorem v6_x (r : Fin 16384) (k : Fin 512) (hk : 512 + k.val < 1536) :
    val_main_v6 (F := Ideal) x0 x1 x2 x4 x5 (ix2 r (⟨512 + k.val, hk⟩ : Fin 1536)) = x0 (ix2 r k) :=
  joined3_second x2 x0 (val_main_v5 (F := Ideal) x0 x1 x2 x4 x5) _ r k _ rfl
theorem v6_s (r : Fin 16384) (k : Fin 512) (hk : 1024 + k.val < 1536) :
    val_main_v6 (F := Ideal) x0 x1 x2 x4 x5 (ix2 r (⟨1024 + k.val, hk⟩ : Fin 1536))
      = val_main_v5 (F := Ideal) x0 x1 x2 x4 x5 (ix2 r k) :=
  joined3_third x2 x0 (val_main_v5 (F := Ideal) x0 x1 x2 x4 x5) _ r k _ rfl

/-- Column `q` of gate `g` of the reference's stacked pre-activations is the cell's pre-activation of the gate. -/
theorem z_at (g : Fin 5) (r : Fin 16384) (q : Fin 512) :
    val_main_v10 (F := Ideal) x0 x1 x2 x4 x5 x6 x7 (ix2 r (gcol g q)) = zRow (ofArrays x4 x5 x6 x7) g (fun k => x2 (ix2 r k)) (fun k => x0 (ix2 r k)) (x1 (ix2 r (0 : Fin 1))) q := by
  rw [val_main_v10_apply, val_main_v7_apply, val_main_v9_apply, val_main_v8_apply]
  simp only [lidx7, ridx7, idx89]
  rw [joined_dot3]
  simp only [v6_h, v6_x, v6_s, s_at x0 x1 x2 x4 x5 x6 x7]
  rfl

/-- The float word of one denotes the extended real one. -/
theorem one_word : Ideal.ofBits .f32 0x3F800000#32 = 1 := by
  rw [show (1 : EReal) = ((1 : ℝ) : EReal) by norm_cast]
  simp [Ideal.ofBits, Ideal.ieee, -EReal.coe_mul]; norm_num

/-- `1 / (1 + exp (−z))` in the host's operations is the logistic function. -/
theorem sigm (z : Ideal .f32) :
    FloatOps.hostDivf (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.div 1 (1 + Ideal.exp (-z))
  rw [one_word]

/-- The reference's new cell state is the cell's, entry by entry. -/
theorem c_at (r : Fin 16384) (q : Fin 512) :
    val_main_v45 (F := Ideal) x0 x1 x2 x3 x4 x5 x6 x7 (ix2 r q) = cRow (ofArrays x4 x5 x6 x7) (fun k => x2 (ix2 r k)) (fun k => x0 (ix2 r k)) (x1 (ix2 r (0 : Fin 1))) (x3 (ix2 r q)) q := by
  simp only [val_main_v45_apply, val_main_v44_apply, val_main_v43_apply, val_main_v42_apply, val_main_v41_apply,
    val_main_v33_apply, val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_v14_apply, val_main_v13_apply, val_main_v12_apply, val_main_v11_apply,
    val_main_cst_apply, val_main_cst_0_apply, val_main_cst_1_apply, val_main_cst_2_apply, val_main_cst_3_apply,
    val_main_cst_4_apply, idx11, idx18, idx25, idx32, z_at x0 x1 x2 x4 x5 x6 x7, s_at x0 x1 x2 x4 x5 x6 x7, sigm]
  rfl

/-- The reference's new hidden state is the cell's, entry by entry. -/
theorem h_at (r : Fin 16384) (q : Fin 512) :
    val_main_v47 (F := Ideal) x0 x1 x2 x3 x4 x5 x6 x7 (ix2 r q) = hRow (ofArrays x4 x5 x6 x7) (fun k => x2 (ix2 r k)) (fun k => x0 (ix2 r k)) (x1 (ix2 r (0 : Fin 1))) (x3 (ix2 r q)) q := by
  simp only [val_main_v47_apply, val_main_v46_apply, val_main_v40_apply, val_main_v39_apply, val_main_v38_apply,
    val_main_v37_apply, val_main_v36_apply, val_main_v35_apply, val_main_v34_apply, val_main_cst_5_apply,
    val_main_cst_6_apply, idx34, z_at x0 x1 x2 x4 x5 x6 x7, c_at x0 x1 x2 x3 x4 x5 x6 x7, sigm]
  rfl

/-- The reference's first result, as an array, is the cell's new hidden states. -/
theorem v47_eq : val_main_v47 (F := Ideal) x0 x1 x2 x3 x4 x5 x6 x7 = hArr (N := 16384) (ofArrays x4 x5 x6 x7) x0 x1 x2 x3 := by
  funext i
  obtain ⟨r, q, rfl⟩ : ∃ (r : Fin 16384) (q : Fin 512), i = ix2 r q := ⟨i 0, i 1, eq_ix2 i⟩
  exact h_at x0 x1 x2 x3 x4 x5 x6 x7 r q

/-- The reference's second result, as an array, is the cell's new cell states. -/
theorem v45_eq : val_main_v45 (F := Ideal) x0 x1 x2 x3 x4 x5 x6 x7 = cArr (N := 16384) (ofArrays x4 x5 x6 x7) x0 x1 x2 x3 := by
  funext i
  obtain ⟨r, q, rfl⟩ : ∃ (r : Fin 16384) (q : Fin 512), i = ix2 r q := ⟨i 0, i 1, eq_ix2 i⟩
  exact c_at x0 x1 x2 x3 x4 x5 x6 x7 r q

end Stages

end Cert.ReferenceIdeal.Entry

end
-- ==== Proof.lean ====
/-
  The kernel computes one step of a time-aware LSTM cell over 16384 rows, 512 rows per grid step, with the two weight
  matrices cut by the host into the row blocks that meet `h`, `x`, the elapsed time and the time gate, and each
  gate's columns taken out of the stacked gate matrix; the reference joins each row's parts into one long row and
  multiplies it by the whole matrices, then cuts the stacked gate columns apart. At the ideal values (exact extended
  reals, changes of float format the identity) both end with the same two arrays: the cell's new hidden states and new
  cell states, row by row (`Cell.hArr`, `Cell.cArr`). The kernel's side is read off its grid steps' blocks
  (KernelEntries, KernelArrays), the reference's side off its operations (ReferenceEntries); the one law between the two
  texts is that a sum over a joined row splits at the joints (Cell), which holds on the extended reals with no
  condition on the values, so the precondition is not used. The idealization rewrote nothing, so the kernel's
  idealization is its own text.
-/
import proofs.«171538_j69758858821994_2_alg».proof.Defs
import proofs.«171538_j69758858821994_2_alg».proof.Proof.Gen.Kernel
import proofs.«171538_j69758858821994_2_alg».proof.Proof.Gen.Kernel.Frame
import proofs.«171538_j69758858821994_2_alg».proof.Proof.Gen.KernelIdeal
import proofs.«171538_j69758858821994_2_alg».proof.Proof.Gen.KernelIdeal.Frame
import proofs.«171538_j69758858821994_2_alg».proof.Proof.Gen.KernelIdeal.Value
import proofs.«171538_j69758858821994_2_alg».proof.Proof.Gen.ReferenceIdeal
import proofs.«171538_j69758858821994_2_alg».proof.Proof.Gen.ReferenceIdeal.Run
import proofs.«171538_j69758858821994_2_alg».proof.Proof.Gen.ReferenceIdeal.Read
import proofs.«171538_j69758858821994_2_alg».proof.Proof.Gen.Pre_finite_inputs
import proofs.«171538_j69758858821994_2_alg».proof.Proof.KernelArrays
import proofs.«171538_j69758858821994_2_alg».proof.Proof.ReferenceEntries
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference runs and leaves its arguments as they were: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the cell's new hidden states and new cell states of arguments that agree. -/
theorem algebraic : Cert.algebraic_KernelIdeal_ReferenceIdeal := by
  intro m ρ m' ρ' _ hagree
  refine ⟨fun c => Cert.KernelIdeal.Arrays.hOut m c, fun c => Cert.KernelIdeal.Arrays.cOut m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v47_eq, Cert.ReferenceIdeal.Entry.v47_eq, a0, a1, a2, a3, a4, a5, a6, a7]
  · obtain ⟨a0, a1, a2, a3, a4, a5, a6, a7⟩ := hagree c
    rw [Cert.ReferenceIdeal.Read.val_main_v45_eq, Cert.ReferenceIdeal.Entry.v45_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
